-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S768 : Shape := ⟨1, ![768]⟩
abbrev S196x768 : Shape := ⟨2, ![196, 768]⟩
abbrev S196 : Shape := ⟨1, ![196]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S768 : S_.BroadcastsInDim S768 (![] : Fin 0 → Fin S768.rank)
  reducesTo_S768_S_d0 : S768.ReducesTo [0] S_
  bcast_S_S196x768 : S_.BroadcastsInDim S196x768 (![] : Fin 0 → Fin S196x768.rank)
  reducesTo_S196x768_S_d0_1 : S196x768.ReducesTo [0, 1] S_
  bcast_S_S196 : S_.BroadcastsInDim S196 (![] : Fin 0 → Fin S196.rank)
  reducesTo_S196_S_d0 : S196.ReducesTo [0] S_

variable [Facts]

def fn_part1 {F : FTy → Type} [FloatOps F] (main_arg4 : FVec F S196 .f32) (main_v13 : IVec S_ 1) (main_v16 : IVec S196x768 1) : IVec S_ 1 :=
  let main_c_5 : IVec S_ 1 := constantI S_ 1 1#1
  let main_v17 : IVec S_ 1 := (fun x v => Host.reduce IntOp.andi x v reducesTo_S196x768_S_d0_1 h_S_) main_v16 main_c_5
  let main_v18 : IVec S_ 1 := andi main_v13 main_v17
  let main_v19 : FVec F S196 .f32 := Host.absf main_arg4
  let main_cst_6 : FVec F S_ .f32 := constant S_ .f32 0x7F800000#32
  let main_v20 : FVec F S196 .f32 := broadcastInDim S196 ![] bcast_S_S196 main_cst_6
  let main_v21 : IVec S196 1 := cmpf .olt main_v19 main_v20
  let main_c_7 : IVec S_ 1 := constantI S_ 1 1#1
  let main_v22 : IVec S_ 1 := (fun x v => Host.reduce IntOp.andi x v reducesTo_S196_S_d0 h_S_) main_v21 main_c_7
  let main_v23 : IVec S_ 1 := andi main_v18 main_v22
  main_v23

def fn {F : FTy → Type} [FloatOps F] (main_arg0 : FVec F S16x4096x768 .f32) (main_arg1 : FVec F S768 .f32) (main_arg2 : FVec F S768 .f32) (main_arg3 : FVec F S196x768 .f32) (main_arg4 : FVec F S196 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S196x768 .f32 := Host.absf main_arg3
  let main_cst_4 : FVec F S_ .f32 := constant S_ .f32 0x7F800000#32
  let main_v15 : FVec F S196x768 .f32 := broadcastInDim S196x768 ![] bcast_S_S196x768 main_cst_4
  let main_v16 : IVec S196x768 1 := cmpf .olt main_v14 main_v15
  fn_part1 (F := F) main_arg4 main_v13 main_v16
-- ==== Kernel.lean ====
abbrev S16x4096x768 : Shape := ⟨3, ![16, 4096, 768]⟩
abbrev S768 : Shape := ⟨1, ![768]⟩
abbrev S196x768 : Shape := ⟨2, ![196, 768]⟩
abbrev S196 : Shape := ⟨1, ![196]⟩
abbrev S65536x768 : Shape := ⟨2, ![65536, 768]⟩
abbrev S1x768 : Shape := ⟨2, ![1, 768]⟩
abbrev S1x196 : Shape := ⟨2, ![1, 196]⟩
abbrev S65536x196 : Shape := ⟨2, ![65536, 196]⟩
abbrev S2048x768 : Shape := ⟨2, ![2048, 768]⟩
abbrev S2048x196 : Shape := ⟨2, ![2048, 196]⟩
abbrev S2048 : Shape := ⟨1, ![2048]⟩
abbrev S2048x1 : Shape := ⟨2, ![2048, 1]⟩
abbrev S16x4096x196 : Shape := ⟨3, ![16, 4096, 196]⟩

abbrev nBuf : Space → Nat
  | .hbm => 11
  | .vmem => 8
  | .smem => 0
  | _ => 0

abbrev bufTy : (tb : Table) → Fin (tcTables nBuf tb) → BufTy
  | .hbm, ⟨0, _⟩ => ⟨S16x4096x768, .f32⟩
  | .hbm, ⟨1, _⟩ => ⟨S768, .f32⟩
  | .hbm, ⟨2, _⟩ => ⟨S768, .f32⟩
  | .hbm, ⟨3, _⟩ => ⟨S196x768, .f32⟩
  | .hbm, ⟨4, _⟩ => ⟨S196, .f32⟩
  | .hbm, ⟨5, _⟩ => ⟨S65536x768, .f32⟩
  | .hbm, ⟨6, _⟩ => ⟨S1x768, .f32⟩
  | .hbm, ⟨7, _⟩ => ⟨S1x768, .f32⟩
  | .hbm, ⟨8, _⟩ => ⟨S1x196, .f32⟩
  | .hbm, ⟨9, _⟩ => ⟨S65536x196, .f32⟩
  | .hbm, ⟨10, _⟩ => ⟨S16x4096x196, .f32⟩
  | .local _ .vmem, ⟨0, _⟩ => ⟨S2048x768, .f32⟩
  | .local _ .vmem, ⟨1, _⟩ => ⟨S2048x768, .f32⟩
  | .local _ .vmem, ⟨2, _⟩ => ⟨S1x768, .f32⟩
  | .local _ .vmem, ⟨3, _⟩ => ⟨S1x768, .f32⟩
  | .local _ .vmem, ⟨4, _⟩ => ⟨S196x768, .f32⟩
  | .local _ .vmem, ⟨5, _⟩ => ⟨S1x196, .f32⟩
  | .local _ .vmem, ⟨6, _⟩ => ⟨S2048x196, .f32⟩
  | .local _ .vmem, ⟨7, _⟩ => ⟨S2048x196, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x196 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x4096x768_S65536x768 : S16x4096x768.ShapeCasts S65536x768
  shapeCasts_S768_S1x768 : S768.ShapeCasts S1x768
  shapeCasts_S196_S1x196 : S196.ShapeCasts S1x196
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S2048x768_S2048 : S2048x768.Reduces [1] S2048
  shapeCasts_S2048_S2048x1 : S2048.ShapeCasts S2048x1
  broadcasts_S2048x1_S2048x768 : S2048x1.Broadcasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  bitsLt_bf16_f32 : FTy.bits .bf16 < FTy.bits .f32
  inb_S196x768_S196x768_0_0 : ∀ a, (![0, 0] : Fin 2 → Nat) a + S196x768.size a ≤ S196x768.size a
  h_S196x768 : 0 < S196x768.numel
  inb_S1x196_S1x196_0_0 : ∀ a, (![0, 0] : Fin 2 → Nat) a + S1x196.size a ≤ S1x196.size a
  h_S1x196 : 0 < S1x196.numel
  shapeCasts_S1x196_S1x196 : S1x196.ShapeCasts S1x196
  broadcasts_S1x196_S2048x196 : S1x196.Broadcasts S2048x196
  inb_S2048x196_S2048x196_0_0 : ∀ a, (![0, 0] : Fin 2 → Nat) a + S2048x196.size a ≤ S2048x196.size a
  h_S2048x196 : 0 < S2048x196.numel
  shapeCasts_S65536x196_S16x4096x196 : S65536x196.ShapeCasts S16x4096x196
  dot_S2048x768_S196x768_S2048x196_1_1_0_0_n_n_wf : DotDims.WF S2048x768 S196x768 S2048x196 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x768.size a ≤ S196x768.size a
  hwx0_3 : ∀ i : grid0.Coords, EltTy.bits .f32 = 32 ∨ (Rect.block (s := S196x768) S196x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x196.size a ≤ S1x196.size a
  hwx0_4 : ∀ i : grid0.Coords, EltTy.bits .f32 = 32 ∨ (Rect.block (s := S1x196) S1x196.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x196.size a ≤ S65536x196.size a
  hwx0_5 : ∀ i : grid0.Coords, EltTy.bits .f32 = 32 ∨ (Rect.block (s := S65536x196) S2048x196.size (cc0_transform_5 i) (hinb0_5 i)).WholeWords (EltTy.packing .f32)

variable [Facts₀]

def dot_S2048x768_S196x768_S2048x196_1_1_0_0_n_n : DotDims S2048x768 S196x768 S2048x196 where
  lhsContracting := [1]
  rhsContracting := [1]
  lhsNonContracting := [0]
  rhsNonContracting := [0]
  lhsBatch := []
  rhsBatch := []
  wf := dot_S2048x768_S196x768_S2048x196_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S196x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x196.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x196.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S768 : Shape := ⟨1, ![768]⟩
abbrev S196x768 : Shape := ⟨2, ![196, 768]⟩
abbrev S196 : Shape := ⟨1, ![196]⟩
abbrev S_ : Shape := ⟨0, ![]⟩
abbrev S16x4096 : Shape := ⟨2, ![16, 4096]⟩
abbrev S16x4096x1 : Shape := ⟨3, ![16, 4096, 1]⟩
abbrev S1x1x768 : Shape := ⟨3, ![1, 1, 768]⟩
abbrev S16x4096x196 : Shape := ⟨3, ![16, 4096, 196]⟩
abbrev S1x1x196 : Shape := ⟨3, ![1, 1, 196]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S768, .f32⟩
  | .hbm, ⟨2, _⟩ => ⟨S768, .f32⟩
  | .hbm, ⟨3, _⟩ => ⟨S196x768, .f32⟩
  | .hbm, ⟨4, _⟩ => ⟨S196, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S16x4096x768, .f32⟩
  | .hbm, ⟨12, _⟩ => ⟨S16x4096x768, .f32⟩
  | .hbm, ⟨13, _⟩ => ⟨S16x4096x768, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x768, .f32⟩
  | .hbm, ⟨21, _⟩ => ⟨S16x4096x768, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S16x4096x1, .f32⟩
  | .hbm, ⟨26, _⟩ => ⟨S16x4096x768, .f32⟩
  | .hbm, ⟨27, _⟩ => ⟨S16x4096x768, .f32⟩
  | .hbm, ⟨28, _⟩ => ⟨S1x1x768, .f32⟩
  | .hbm, ⟨29, _⟩ => ⟨S16x4096x768, .f32⟩
  | .hbm, ⟨30, _⟩ => ⟨S16x4096x768, .f32⟩
  | .hbm, ⟨31, _⟩ => ⟨S1x1x768, .f32⟩
  | .hbm, ⟨32, _⟩ => ⟨S16x4096x768, .f32⟩
  | .hbm, ⟨33, _⟩ => ⟨S16x4096x768, .f32⟩
  | .hbm, ⟨34, _⟩ => ⟨S16x4096x196, .f32⟩
  | .hbm, ⟨35, _⟩ => ⟨S1x1x196, .f32⟩
  | .hbm, ⟨36, _⟩ => ⟨S16x4096x196, .f32⟩
  | .hbm, ⟨37, _⟩ => ⟨S16x4096x196, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S16x4096x768_S16x4096_d2 : S16x4096x768.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x768_0_1_2 : S16x4096x1.BroadcastsInDim S16x4096x768 (![0, 1, 2] : Fin 3 → Fin S16x4096x768.rank)
  bcast_S768_S1x1x768_2 : S768.BroadcastsInDim S1x1x768 (![2] : Fin 1 → Fin S1x1x768.rank)
  bcast_S1x1x768_S16x4096x768_0_1_2 : S1x1x768.BroadcastsInDim S16x4096x768 (![0, 1, 2] : Fin 3 → Fin S16x4096x768.rank)
  bcast_S196_S1x1x196_2 : S196.BroadcastsInDim S1x1x196 (![2] : Fin 1 → Fin S1x1x196.rank)
  bcast_S1x1x196_S16x4096x196_0_1_2 : S1x1x196.BroadcastsInDim S16x4096x196 (![0, 1, 2] : Fin 3 → Fin S16x4096x196.rank)
  dot_S16x4096x768_S196x768_S16x4096x196_2_1_01_0_n_n_wf : DotDims.WF S16x4096x768 S196x768 S16x4096x196 [2] [1] [0, 1] [0] [] []

variable [Facts₀]

def dot_S16x4096x768_S196x768_S16x4096x196_2_1_01_0_n_n : DotDims S16x4096x768 S196x768 S16x4096x196 where
  lhsContracting := [2]
  rhsContracting := [1]
  lhsNonContracting := [0, 1]
  rhsNonContracting := [0]
  lhsBatch := []
  rhsBatch := []
  wf := dot_S16x4096x768_S196x768_S16x4096x196_2_1_01_0_n_n_wf

class Facts : Prop extends Facts₀ where

variable [Facts]
-- ==== Proof.Spec.lean ====
/-
  The function both programs compute, one output entry at a time.

  A row `x` of 768 numbers is centred on its mean, scaled by the reciprocal square root of its variance plus a
  small constant, multiplied entry by entry by a gain `g` and shifted by an offset `b`; the normalised row is
  then paired with one row `w` of the weight matrix (a sum of 768 products) and one bias entry is added.
  Everything is read on the extended reals, so each operation is the exact one; the three float words that both
  programs spell (zero, the row length 768 and the small constant) are kept as words and never evaluated, since the
  same word stands on both sides.
-/
import Idealize.ShloMosaic.PureOps.Ideal
import Idealize.ShloMosaic.PureOps.Ideal.Laws
import Idealize.ShloMosaic.Lib.ValueIdx

noncomputable section

namespace Cert.LnLinear

open Idealize.ShloMosaic Idealize.ShloMosaic.ValueIdx

/-- The float word of the row length, 768. -/
abbrev lenW : EReal := Ideal.ofBits .f32 0x44400000#32
/-- The float word of the small constant added to the variance. -/
abbrev epsW : EReal := Ideal.ofBits .f32 0x358637BD#32

/-- The mean of a row: its sum divided by the row length. -/
def mean (x : Fin 768 → EReal) : EReal := Ideal.div (∑ k, x k) lenW
/-- A row's entry less the row's mean. -/
def centred (x : Fin 768 → EReal) (k : Fin 768) : EReal := x k - mean x
/-- The variance of a row: the mean of the squares of its centred entries. -/
def variance (x : Fin 768 → EReal) : EReal := Ideal.div (∑ k, centred x k * centred x k) lenW
/-- The factor a centred row is scaled by: one over the square root of the variance plus the small constant. -/
def scale (x : Fin 768 → EReal) : EReal := Ideal.rsqrt (variance x + epsW)
/-- The normalised row: centred, scaled, multiplied by the gain, shifted by the offset. -/
def normed (x g b : Fin 768 → EReal) (k : Fin 768) : EReal := centred x k * scale x * g k + b k
/-- One output entry: the normalised row against one weight row, plus one bias entry. -/
def entry (x g b w : Fin 768 → EReal) (bias : EReal) : EReal := (∑ k, normed x g b k * w k) + bias

/-- THE RESULT as one function of the five argument arrays: entry (a, s, q) is `entry` of input row (a, s), the gain,
    the offset, weight row `q` and bias entry `q`. -/
def result (x : (⟨3, ![16, 4096, 768]⟩ : Shape).Idx → EReal) (g b : (⟨1, ![768]⟩ : Shape).Idx → EReal)
    (W : (⟨2, ![196, 768]⟩ : Shape).Idx → EReal) (bias : (⟨1, ![196]⟩ : Shape).Idx → EReal) :
    (⟨3, ![16, 4096, 196]⟩ : Shape).Idx → EReal :=
  fun i => entry (fun k => x (ix3 (⟨(i 0).val, (i 0).isLt⟩ : Fin 16) (⟨(i 1).val, (i 1).isLt⟩ : Fin 4096) k))
    (fun k => g (ix1 k)) (fun k => b (ix1 k)) (fun k => W (ix2 (⟨(i 2).val, (i 2).isLt⟩ : Fin 196) k))
    (bias (ix1 (⟨(i 2).val, (i 2).isLt⟩ : Fin 196)))

/-- `entry` depends on its rows entry by entry. -/
theorem entry_congr {x x' g g' b b' w w' : Fin 768 → EReal} {c c' : EReal} (hx : ∀ k, x k = x' k) (hg : ∀ k, g k = g' k)
    (hb : ∀ k, b k = b' k) (hw : ∀ k, w k = w' k) (hc : c = c') : entry x g b w c = entry x' g' b' w' c' := by
  obtain rfl : x = x' := funext hx
  obtain rfl : g = g' := funext hg
  obtain rfl : b = b' := funext hb
  obtain rfl : w = w' := funext hw
  rw [hc]

end Cert.LnLinear

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Payload.lean ====
/-
  The body's arithmetic read one output entry at a time.

  The body receives a block of 2048 rows of 768 entries, the gain and the offset as single rows of 768, the weight
  matrix (196 rows of 768) and the bias as a single row of 196, and stores a block of 2048 rows of 196 entries.
  Entry (p, q) of the stored block depends on row p of the input block only: it is that row normalised and paired
  with weight row q, plus bias entry q — `Cert.LnLinear.entry` of those rows.  The only steps that are not entry by
  entry are a row sum (twice), a sum turned into a column and repeated along the row, a single row repeated down the
  rows, and the matrix product, which contracts the second axis of both its operands.
-/
import proofs.«173194_j48773648614249_1_alg».proof.Proof.Gen.KernelIdeal.Skeleton
import proofs.«173194_j48773648614249_1_alg».proof.Proof.Spec
import proofs.«173194_j48773648614249_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen Cert.LnLinear
open Cert.KernelIdeal.Facts₀

/-- A sum along the rows of a 2048 × 768 block, read at row `p`: the sum of that row's 768 entries. -/
theorem rowSum_apply (v : FVec Ideal S2048x768 .f32) (h : S2048x768.Reduces [1] S2048) (hφ : FKind.Formats .f32)
    (hacc : (0x00000000#32 : BitVec 32) = 0x00000000#32) (p : Fin 2048) :
    multiReduction .add [1] S2048 v 0x00000000#32 h hφ hacc (ix1 p) = ∑ k : Fin 768, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- The reciprocal square root of a vector, read at an index, is that of the entry. -/
theorem rsqrt_apply {s : Shape} (a : FVec Ideal s .f32) (i : s.Idx) : rsqrt a i = Ideal.rsqrt (a i) := rfl

/-- The two index maps of the matrix product (it contracts axis 1 of both operands and has no batch axis): the left
    operand is read at the output's row, the right operand at the output's column, both at the contracted position. -/
theorem lhs_row (i : S2048x196.Idx) (z : dot_S2048x768_S196x768_S2048x196_1_1_0_0_n_n.contr.Idx) :
    (dot_S2048x768_S196x768_S2048x196_1_1_0_0_n_n.lhsIdx i z 0).val = (i 0).val := by
  unfold DotDims.lhsIdx
  rw [dif_neg (show ¬(0 : Fin S2048x768.rank) ∈ dot_S2048x768_S196x768_S2048x196_1_1_0_0_n_n.lhsBatch by decide),
    dif_pos (show (0 : Fin S2048x768.rank) ∈ dot_S2048x768_S196x768_S2048x196_1_1_0_0_n_n.lhsNonContracting by decide)]
  rfl
theorem lhs_pos (i : S2048x196.Idx) (z : dot_S2048x768_S196x768_S2048x196_1_1_0_0_n_n.contr.Idx) :
    (dot_S2048x768_S196x768_S2048x196_1_1_0_0_n_n.lhsIdx i z 1).val = (z ⟨0, by decide⟩).val :=
  dot_S2048x768_S196x768_S2048x196_1_1_0_0_n_n.lhsIdx_val_of_single rfl i z
theorem rhs_row (i : S2048x196.Idx) (z : dot_S2048x768_S196x768_S2048x196_1_1_0_0_n_n.contr.Idx) :
    (dot_S2048x768_S196x768_S2048x196_1_1_0_0_n_n.rhsIdx i z 0).val = (i 1).val := by
  unfold DotDims.rhsIdx
  rw [dif_neg (show ¬(0 : Fin S196x768.rank) ∈ dot_S2048x768_S196x768_S2048x196_1_1_0_0_n_n.rhsBatch by decide),
    dif_pos (show (0 : Fin S196x768.rank) ∈ dot_S2048x768_S196x768_S2048x196_1_1_0_0_n_n.rhsNonContracting by decide)]
  rfl
theorem rhs_pos (i : S2048x196.Idx) (z : dot_S2048x768_S196x768_S2048x196_1_1_0_0_n_n.contr.Idx) :
    (dot_S2048x768_S196x768_S2048x196_1_1_0_0_n_n.rhsIdx i z 1).val = (z ⟨0, by decide⟩).val :=
  dot_S2048x768_S196x768_S2048x196_1_1_0_0_n_n.rhsIdx_val_of_single rfl i z

/-- The matrix product of a 2048 × 768 block with a 196 × 768 matrix, contracting the second axis of both, onto
    a zero accumulator, read at (p, q): the sum over the 768 positions of row `p` against row `q`. -/
theorem matmul_rows_apply (A : FVec Ideal S2048x768 .bf16) (B : FVec Ideal S196x768 .bf16) (p : Fin 2048) (q : Fin 196) :
    matmul dot_S2048x768_S196x768_S2048x196_1_1_0_0_n_n none A B (constant S2048x196 .f32 0x00000000#32) (ix2 p q)
      = ∑ k : Fin 768, A (ix2 p k) * B (ix2 q k) := by
  simp only [matmul]
  rw [Ideal.matmul_constant_zero_apply,
    ← Equiv.sum_comp (contrEquiv1 dot_S2048x768_S196x768_S2048x196_1_1_0_0_n_n 768 rfl rfl).symm]
  refine Finset.sum_congr rfl fun k _ => ?_
  have hk := contrEquiv1_symm_val dot_S2048x768_S196x768_S2048x196_1_1_0_0_n_n 768 rfl rfl k
  have el : dot_S2048x768_S196x768_S2048x196_1_1_0_0_n_n.lhsIdx (ix2 p q)
      ((contrEquiv1 dot_S2048x768_S196x768_S2048x196_1_1_0_0_n_n 768 rfl rfl).symm k) = ix2 p k :=
    funext fun a => Fin.ext (by
      match a with
      | ⟨0, _⟩ => exact lhs_row _ _
      | ⟨1, _⟩ => exact (lhs_pos _ _).trans hk)
  have er : dot_S2048x768_S196x768_S2048x196_1_1_0_0_n_n.rhsIdx (ix2 p q)
      ((contrEquiv1 dot_S2048x768_S196x768_S2048x196_1_1_0_0_n_n 768 rfl rfl).symm k) = ix2 q k :=
    funext fun a => Fin.ext (by
      match a with
      | ⟨0, _⟩ => exact rhs_row _ _
      | ⟨1, _⟩ => exact (rhs_pos _ _).trans hk)
  rw [el, er]

/-- ENTRY (p, q) OF THE STORED BLOCK: row `p` of the input block, normalised with the gain and offset rows, against
    row `q` of the weight matrix, plus entry `q` of the bias row. -/
theorem pay_apply (v0 : Vec Ideal S2048x768 .f32) (v18 v22 : Vec Ideal S1x768 .f32) (v27 : Vec Ideal S196x768 .f32)
    (v30 : Vec Ideal S1x196 .f32) (p : Fin 2048) (q : Fin 196) :
    k0_pay1 (F := Ideal) v0 v18 v22 v27 v30 (ix2 p q)
      = entry (fun k => v0 (ix2 p k)) (fun k => v18 (ix2 (0 : Fin 1) k)) (fun k => v22 (ix2 (0 : Fin 1) k))
          (fun k => v27 (ix2 q k)) (v30 (ix2 (0 : Fin 1) q)) := by
  unfold k0_pay1
  dsimp only
  simp only [addf_apply, mulf_apply, subf_apply, divf_apply, truncf_apply, broadcast_apply, rsqrt_apply, shapeCast_self,
    matmul_rows_apply, Cert.LibLayout.shapeCast_a_a1_apply, Cert.LibLayout.broadcastTo_a1_ab_apply,
    broadcastTo_1b_ab_apply, Ideal.ofBits_def]
  -- the row's sum (for the mean), then the sum of squares (for the variance), then the mean inside the squares
  rw [rowSum_apply _ _ _ _ p]
  rw [rowSum_apply _ _ _ _ p]
  simp only [mulf_apply, subf_apply, divf_apply, broadcast_apply, Cert.LibLayout.shapeCast_a_a1_apply,
    Cert.LibLayout.broadcastTo_a1_ab_apply]
  rw [rowSum_apply _ _ _ _ p]
  rfl

end Cert.KernelIdeal.Entry

end
-- ==== Proof.Blocks.lean ====
/-
  From the blocks the grid points write back to the whole array.

  The grid has 32 points; point `t` reads rows `2048·t … 2048·t + 2047` of the 65536 × 768 input and all of the gain,
  offset, weight and bias arrays, and writes back rows `2048·t … 2048·t + 2047` of the 65536 × 196 output.  Since
  entry (p, q) of a stored block depends on row `p` of the input block only, every written block is the restriction of
  one function of the whole arrays: row `r`, column `q` of the output is `entry` of input row `r`, the gain, the
  offset, weight row `q` and bias entry `q`.  The 32 blocks tile the output (row `r` lies in the block of point
  `r / 2048`), so after the run the output array is that function.
-/
import proofs.«173194_j48773648614249_1_alg».proof.Proof.Gen.KernelIdeal.Frame
import proofs.«173194_j48773648614249_1_alg».proof.Proof.Payload
import Idealize.ShloMosaic.Lib.Pipeline.Value

set_option maxRecDepth 16384

noncomputable section

namespace Cert.KernelIdeal.Rows

open Idealize.ShloMosaic Idealize.ShloMosaic.TcCoe Idealize.ShloMosaic.ValueIdx Idealize.SL.Sem
open Cert.KernelIdeal Cert.KernelIdeal.Gen Cert.KernelIdeal.Entry Cert.LnLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output array as one function of the arrays the region reads: row `r`, column `q` is the entry of input row
    `r` against weight row `q`. -/
def rowsFn (X : S65536x768.Idx → EReal) (g b : S1x768.Idx → EReal) (W : S196x768.Idx → EReal) (bias : S1x196.Idx → EReal) :
    S65536x196.Idx → EReal :=
  fun i => entry (fun k => X (ix2 (⟨(i 0).val, idx2_lt0 i⟩ : Fin 65536) k)) (fun k => g (ix2 (0 : Fin 1) k))
    (fun k => b (ix2 (0 : Fin 1) k)) (fun k => W (ix2 (⟨(i 1).val, idx2_lt1 i⟩ : Fin 196) k))
    (bias (ix2 (0 : Fin 1) (⟨(i 1).val, idx2_lt1 i⟩ : Fin 196)))

/-- The stored block at any index of the block, by its coordinates. -/
theorem pay_at (v0 : Vec Ideal S2048x768 .f32) (v18 v22 : Vec Ideal S1x768 .f32) (v27 : Vec Ideal S196x768 .f32)
    (v30 : Vec Ideal S1x196 .f32) (j : S2048x196.Idx) :
    k0_pay1 (F := Ideal) v0 v18 v22 v27 v30 j
      = entry (fun k => v0 (ix2 (⟨(j 0).val, idx2_lt0 j⟩ : Fin 2048) k)) (fun k => v18 (ix2 (0 : Fin 1) k))
          (fun k => v22 (ix2 (0 : Fin 1) k)) (fun k => v27 (ix2 (⟨(j 1).val, idx2_lt1 j⟩ : Fin 196) k))
          (v30 (ix2 (0 : Fin 1) (⟨(j 1).val, idx2_lt1 j⟩ : Fin 196))) := by
  obtain ⟨p, q, rfl⟩ : ∃ (p : Fin 2048) (q : Fin 196), j = ix2 p q := ⟨j 0, j 1, eq_ix2 j⟩
  exact pay_apply v0 v18 v22 v27 v30 p q

/-- The printed index maps, decided over the grid: the input and the output move down one block of rows per point;
    the gain, the offset, the weights and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s input block is row `2048·t + p` of the input array. -/
theorem blk0_read (c : Dev nD) (t : Fin cfg0.N) (p : Fin 2048) (k : Fin 768) (r : Fin 65536) (hr : r.val = t.val * 2048 + p.val) :
    iblk m c 0 t (ix2 p k) = V m c main_v0 (ix2 r k) := by
  show V m c main_v0 (((cfg0.win 0).blk t).view.emb (ix2 p k)) = V m c main_v0 (ix2 r k)
  refine congrArg (V m c main_v0) ?_
  obtain ⟨e00, e01, -⟩ := idx_facts t
  funext d; apply Fin.ext
  match d with
  | ⟨0, _⟩ => show win0_0.index t (0 : Fin 2) * 2048 + 1 * p.val = r.val; omega
  | ⟨1, _⟩ => show win0_0.index t (1 : Fin 2) * 768 + 1 * k.val = k.val; omega

/-- The gain's block at any point is the gain array. -/
theorem blk1_read (c : Dev nD) (t : Fin cfg0.N) (k : Fin 768) :
    iblk m c 1 t (ix2 (0 : Fin 1) k) = V m c main_v1 (ix2 (0 : Fin 1) k) := by
  show V m c main_v1 (((cfg0.win 1).blk t).view.emb (ix2 (0 : Fin 1) k)) = V m c main_v1 (ix2 (0 : Fin 1) k)
  refine congrArg (V m c main_v1) ?_
  obtain ⟨-, -, e10, e11, -⟩ := idx_facts t
  funext d; apply Fin.ext
  match d with
  | ⟨0, _⟩ => show win0_1.index t (0 : Fin 2) * 1 + 1 * 0 = 0; omega
  | ⟨1, _⟩ => show win0_1.index t (1 : Fin 2) * 768 + 1 * k.val = k.val; omega

/-- The offset's block at any point is the offset array. -/
theorem blk2_read (c : Dev nD) (t : Fin cfg0.N) (k : Fin 768) :
    iblk m c 2 t (ix2 (0 : Fin 1) k) = V m c main_v2 (ix2 (0 : Fin 1) k) := by
  show V m c main_v2 (((cfg0.win 2).blk t).view.emb (ix2 (0 : Fin 1) k)) = V m c main_v2 (ix2 (0 : Fin 1) k)
  refine congrArg (V m c main_v2) ?_
  obtain ⟨-, -, -, -, e20, e21, -⟩ := idx_facts t
  funext d; apply Fin.ext
  match d with
  | ⟨0, _⟩ => show win0_2.index t (0 : Fin 2) * 1 + 1 * 0 = 0; omega
  | ⟨1, _⟩ => show win0_2.index t (1 : Fin 2) * 768 + 1 * k.val = k.val; omega

/-- The weights' block at any point is the weight matrix. -/
theorem blk3_read (c : Dev nD) (t : Fin cfg0.N) (q : Fin 196) (k : Fin 768) :
    iblk m c 3 t (ix2 q k) = V m c main_arg3 (ix2 q k) := by
  show V m c main_arg3 (((cfg0.win 3).blk t).view.emb (ix2 q k)) = V m c main_arg3 (ix2 q k)
  refine congrArg (V m c main_arg3) ?_
  obtain ⟨-, -, -, -, -, -, e30, e31, -⟩ := idx_facts t
  funext d; apply Fin.ext
  match d with
  | ⟨0, _⟩ => show win0_3.index t (0 : Fin 2) * 196 + 1 * q.val = q.val; omega
  | ⟨1, _⟩ => show win0_3.index t (1 : Fin 2) * 768 + 1 * k.val = k.val; omega

/-- The bias's block at any point is the bias array. -/
theorem blk4_read (c : Dev nD) (t : Fin cfg0.N) (q : Fin 196) :
    iblk m c 4 t (ix2 (0 : Fin 1) q) = V m c main_v3 (ix2 (0 : Fin 1) q) := by
  show V m c main_v3 (((cfg0.win 4).blk t).view.emb (ix2 (0 : Fin 1) q)) = V m c main_v3 (ix2 (0 : Fin 1) q)
  refine congrArg (V m c main_v3) ?_
  obtain ⟨-, -, -, -, -, -, -, -, e40, e41, -⟩ := idx_facts t
  funext d; apply Fin.ext
  match d with
  | ⟨0, _⟩ => show win0_4.index t (0 : Fin 2) * 1 + 1 * 0 = 0; omega
  | ⟨1, _⟩ => show win0_4.index t (1 : Fin 2) * 196 + 1 * q.val = q.val; omega

/-- WHAT POINT `t` WRITES BACK is block `t` of `rowsFn` of the arrays as the region finds them. -/
theorem flushed_eq (c : Dev nD) (t : Fin cfg0.N) :
    (dats m 0 c).flushed 5 t = ((cfg0.win 5).blk t).view.read (Elt Ideal)
      (rowsFn (V m c main_v0) (V m c main_v1) (V m c main_v2) (V m c main_arg3) (V m c main_v3)) := by
  show (cfg0.win 5).cut (grid0.coords t) ((dats m 0 c).after 5 t) = _
  rw [after0_5]
  unfold out0_5
  rw [View.canon_unit_zero hz]
  simp only [View.ld_unit_zero (S := S2048x768) hz, View.ld_unit_zero (S := S1x768) hz,
    View.ld_unit_zero (S := S196x768) hz, View.ld_unit_zero (S := S1x196) hz]
  funext j
  show k0_pay1 (iblk m c 0 t) (iblk m c 1 t) (iblk m c 2 t) (iblk m c 3 t) (iblk m c 4 t) j
    = rowsFn (V m c main_v0) (V m c main_v1) (V m c main_v2) (V m c main_arg3) (V m c main_v3)
        (((cfg0.win 5).blk t).view.emb j)
  refine (pay_at (iblk m c 0 t) (iblk m c 1 t) (iblk m c 2 t) (iblk m c 3 t) (iblk m c 4 t) j).trans ?_
  unfold rowsFn
  obtain ⟨-, -, -, -, -, -, -, -, -, -, e50, e51⟩ := idx_facts t
  have hj0 : (j 0).val < 2048 := (j 0).isLt
  have hj1 : (j 1).val < 196 := (j 1).isLt
  have r0 : ((((cfg0.win 5).blk t).view.emb j) 0).val = t.val * 2048 + (j 0).val := by
    show win0_5.index t (0 : Fin 2) * 2048 + 1 * (j 0).val = _
    omega
  have r1 : ((((cfg0.win 5).blk t).view.emb j) 1).val = (j 1).val := by
    show win0_5.index t (1 : Fin 2) * 196 + 1 * (j 1).val = _
    omega
  have q1 : (⟨(j 1).val, hj1⟩ : Fin 196) = ⟨((((cfg0.win 5).blk t).view.emb j) 1).val, by rw [r1]; exact hj1⟩ :=
    Fin.ext r1.symm
  refine entry_congr (fun k => blk0_read m c t ⟨(j 0).val, hj0⟩ k _ r0) (fun k => blk1_read m c t k)
    (fun k => blk2_read m c t k) (fun k => ?_) ?_
  · exact (blk3_read m c t ⟨(j 1).val, hj1⟩ k).trans (congrArg (fun z : Fin 196 => V m c main_arg3 (ix2 z k)) q1)
  · exact (blk4_read m c t ⟨(j 1).val, hj1⟩).trans (congrArg (fun z : Fin 196 => V m c main_v3 (ix2 (0 : Fin 1) z)) q1)

/-- An index of the output array is in point `t`'s block iff each coordinate is in the block's range on its axis. -/
theorem mem_blk (t : Fin cfg0.N) (i : S65536x196.Idx) :
    i ∈ ((cfg0.win 5).blk t).view.set ↔ ∀ a : Fin 2, win0_5.index t a * S2048x196.size a ≤ (i a).val
      ∧ (i a).val < win0_5.index t a * S2048x196.size a + S2048x196.size a := by
  show i ∈ ((View.whole main_v4).slice (win0_5.rect t)).set ↔ _
  rw [View.set_slice_whole, Rect.mem_set_unit]
  exact Iff.rfl

/-- The blocks tile the output: row `r` lies in the block of point `r / 2048`. -/
theorem cover (i : S65536x196.Idx) :
    ∃ t : Fin cfg0.N, (cfg0.win 5).flush t = true ∧ i ∈ ((cfg0.win 5).blk t).view.set := by
  have hi0 : (i 0).val < 65536 := (i 0).isLt
  have hi1 : (i 1).val < 196 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 196 ≤ (i 1).val ∧ (i 1).val < win0_5.index t (1 : Fin 2) * 196 + 196
    omega

/-- THE OUTPUT ARRAY AFTER THE RUN is `rowsFn` of the arrays as the region finds them. -/
theorem final (c : Dev nD) :
    (dats m 0 c).arrAt 5 cfg0.N
      = rowsFn (V m c main_v0) (V m c main_v1) (V m c main_v2) (V m c main_arg3) (V m c main_v3) :=
  (dats m 0 c).arrAt_eq_of_cover 5 _ (fun t _ => flushed_eq m c t) (cover)

end Cert.KernelIdeal.Rows

end
-- ==== Proof.KernelValue.lean ====
/-
  The kernel program's result as a function of its five arguments.

  Before the region the host reshapes the input from 16 × 4096 × 768 to 65536 × 768 (row `4096·a + s` is row (a, s)) and
  the gain, offset and bias from vectors to single rows; after it, the host reshapes the 65536 × 196 output back to
  16 × 4096 × 196.  Composed with the array the region leaves, entry (a, s, q) of the program's result is `entry` of
  input row (a, s), the gain, the offset, weight row `q` and bias entry `q`: the function `Cert.LnLinear.result`.
-/
import proofs.«173194_j48773648614249_1_alg».proof.Proof.Blocks
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Rows Cert.LnLinear
open Idealize.ShloMosaic.Pipeline (Dat)

variable (m : (ℓ : Loc nD τ sig) → Buf (Elt Ideal) ℓ) (ρ : Dev nD → PrngReg)

/-- The input as the region finds it: the argument reshaped to 65536 rows. -/
theorem V_v0 (c : Dev nD) : (V m c main_v0 : S65536x768.Idx → EReal)
    = shapeCast S65536x768 (m ((c : Thread nD τ).loc main_arg0)) shapeCasts_S16x4096x768_S65536x768 := by
  show StableHlo.after hostOps0 (fun b => m (c, b)) (Proc.devRef .tc main_v0) = _
  after_results
  rfl

/-- The gain as the region finds it: the argument as a single row. -/
theorem V_v1 (c : Dev nD) : (V m c main_v1 : S1x768.Idx → EReal)
    = shapeCast S1x768 (m ((c : Thread nD τ).loc main_arg1)) shapeCasts_S768_S1x768 := by
  show StableHlo.after hostOps0 (fun b => m (c, b)) (Proc.devRef .tc main_v1) = _
  after_results
  rfl

/-- The offset as the region finds it: the argument as a single row. -/
theorem V_v2 (c : Dev nD) : (V m c main_v2 : S1x768.Idx → EReal)
    = shapeCast S1x768 (m ((c : Thread nD τ).loc main_arg2)) shapeCasts_S768_S1x768 := by
  show StableHlo.after hostOps0 (fun b => m (c, b)) (Proc.devRef .tc main_v2) = _
  after_results
  rfl

/-- The bias as the region finds it: the argument as a single row. -/
theorem V_v3 (c : Dev nD) : (V m c main_v3 : S1x196.Idx → EReal)
    = shapeCast S1x196 (m ((c : Thread nD τ).loc main_arg4)) shapeCasts_S196_S1x196 := by
  show StableHlo.after hostOps0 (fun b => m (c, b)) (Proc.devRef .tc main_v3) = _
  after_results
  rfl

/-- The program's result buffer: the array the region leaves, reshaped back to three axes. -/
theorem tail_eq (c : Dev nD) : (Pipeline.afterTail₀ cfgs (dats m) 0 (V0 m) [hostOps1] c main_v5 : S16x4096x196.Idx → EReal)
    = shapeCast S16x4096x196 ((dats m 0 c).arrAt 5 cfg0.N) shapeCasts_S65536x196_S16x4096x196 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) 5
  refine Eq.trans ?_ (congrArg (fun A => shapeCast S16x4096x196 A shapeCasts_S65536x196_S16x4096x196) e)
  rfl

/-- THE PROGRAM'S RESULT is `result` of the five arguments as launched. -/
theorem result_eq (c : Dev nD) :
    (Pipeline.afterTail₀ cfgs (dats m) 0 (V0 m) [hostOps1] c main_v5 : S16x4096x196.Idx → EReal)
      = result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, final]
  funext i
  obtain ⟨a, s, q, rfl⟩ : ∃ (a : Fin 16) (s : Fin 4096) (q : Fin 196), i = ix3 a s q := ⟨i 0, i 1, i 2, eq_ix3 i⟩
  have hr : a.val * 4096 + s.val < 65536 := by have := a.isLt; have := s.isLt; omega
  rw [Cert.LibLayout.shapeCast_nc_abc_apply _ _ a s q ⟨a.val * 4096 + s.val, hr⟩ rfl]
  unfold rowsFn result
  refine entry_congr (fun k => ?_) (fun k => ?_) (fun k => ?_) (fun k => ?_) ?_
  · rw [V_v0]
    exact Cert.LibLayout.shapeCast_abc_nc_apply _ _ a s k _ rfl
  · rw [V_v1]
    exact shapeCast_a_1a_apply _ _ 0 k
  · rw [V_v2]
    exact shapeCast_a_1a_apply _ _ 0 k
  · rw [V_main_arg3]
  · rw [V_v3]
    exact shapeCast_a_1a_apply _ _ 0 q

/-- THE RUN, READ: every weakly fair execution of the kernel program ends with its result buffer at `result` of the
    arguments and the arguments as launched. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefEntry.lean ====
/-
  The reference read one output entry at a time.

  The reference works on the three-axis array directly: entry (a, s, q) of its result depends on the row (a, s, ·) of
  the input only.  Stage by stage, each read at coordinates: the row's mean, a centred entry, the row's variance, the
  scale factor, a normalised entry, and finally the sum of the normalised row against weight row `q` plus bias entry
  `q` — `Cert.LnLinear.entry` of those rows.  The host's sum starts from the zero word, which is the real zero.
-/
import proofs.«173194_j48773648614249_1_alg».proof.Proof.Gen.ReferenceIdeal.Read
import proofs.«173194_j48773648614249_1_alg».proof.Proof.Spec
import Idealize.ShloMosaic.Lib.ValueIdx
import Idealize.ShloMosaic.PureOps.Ideal.Laws

noncomputable section

namespace Cert.ReferenceIdeal.Entry

open Idealize.ShloMosaic Idealize.ShloMosaic.ValueIdx Cert.ReferenceIdeal Cert.ReferenceIdeal.Read Cert.LnLinear

variable (x0 : (⟨S16x4096x768, .f32⟩ : BufTy).Contents (Elt Ideal)) (x1 x2 : (⟨S768, .f32⟩ : BufTy).Contents (Elt Ideal))
  (x3 : (⟨S196x768, .f32⟩ : BufTy).Contents (Elt Ideal)) (x4 : (⟨S196, .f32⟩ : BufTy).Contents (Elt Ideal))
  (a : Fin 16) (s : Fin 4096)

/-- Row (a, s) of the input. -/
abbrev row : Fin 768 → EReal := fun k => x0 (ix3 a s k)

/-- The row's sum as the host computes it: the zero word plus the sum of the row. -/
theorem sum_apply : val_main_v0 (F := Ideal) x0 (ix2 a s) = ∑ k, row x0 a s k := by
  rw [val_main_v0_apply, val_main_cst_apply, Ideal.ofBits_def, Ideal.ofBits_zero_f32, zero_add]
  refine Finset.sum_congr rfl fun k _ => congrArg x0 ?_
  funext d; apply Fin.ext
  match d with
  | ⟨0, _⟩ => rfl
  | ⟨1, _⟩ => rfl
  | ⟨2, _⟩ => rfl

/-- The mean, kept with a unit last axis. -/
theorem mean_apply : val_main_v3 (F := Ideal) x0 (ix3 a s (0 : Fin 1)) = mean (row x0 a s) := by
  rw [val_main_v3_apply, val_main_v1_apply, val_main_v2_apply, val_main_cst_0_apply, Ideal.hostDivf_def, Ideal.ofBits_def]
  have e : idx_main_v1 (ix3 a s (0 : Fin 1)) = ix2 a s := by
    funext d; apply Fin.ext
    match d with
    | ⟨0, _⟩ => rfl
    | ⟨1, _⟩ => rfl
  rw [e, sum_apply]
  rfl

/-- An index of the three-axis input read through a repeat along the last axis lands on the unit coordinate. -/
theorem col_v4 (k : Fin 768) : idx_main_v4 (ix3 a s k) = ix3 a s (0 : Fin 1) := by
  funext d; apply Fin.ext
  match d with
  | ⟨0, _⟩ => rfl
  | ⟨1, _⟩ => rfl
  | ⟨2, _⟩ => rfl
theorem col_v11 (k : Fin 768) : idx_main_v11 (ix3 a s k) = ix3 a s (0 : Fin 1) := by
  funext d; apply Fin.ext
  match d with
  | ⟨0, _⟩ => rfl
  | ⟨1, _⟩ => rfl
  | ⟨2, _⟩ => rfl
theorem col_v16 (k : Fin 768) : idx_main_v16 (ix3 a s k) = ix3 a s (0 : Fin 1) := by
  funext d; apply Fin.ext
  match d with
  | ⟨0, _⟩ => rfl
  | ⟨1, _⟩ => rfl
  | ⟨2, _⟩ => rfl

/-- A centred entry, as the variance's operand spells it … -/
theorem centred_apply (k : Fin 768) : val_main_v5 (F := Ideal) x0 (ix3 a s k) = centred (row x0 a s) k := by
  rw [val_main_v5_apply, val_main_v4_apply, col_v4, mean_apply, Ideal.subf_def]
  rfl
/-- … and as the normalised row's operand spells it (the same subtraction, printed twice). -/
theorem centred_apply' (k : Fin 768) : val_main_v12 (F := Ideal) x0 (ix3 a s k) = centred (row x0 a s) k := by
  rw [val_main_v12_apply, val_main_v11_apply, col_v11, mean_apply, Ideal.subf_def]
  rfl

/-- The sum of the squares of the centred row. -/
theorem sumsq_apply : val_main_v7 (F := Ideal) x0 (ix2 a s) = ∑ k, centred (row x0 a s) k * centred (row x0 a s) k := by
  rw [val_main_v7_apply, val_main_cst_1_apply, Ideal.ofBits_def, Ideal.ofBits_zero_f32, zero_add]
  refine Finset.sum_congr rfl fun k _ => ?_
  have e : idx_main_v7 (ix2 a s) k = ix3 a s k := by
    funext d; apply Fin.ext
    match d with
    | ⟨0, _⟩ => rfl
    | ⟨1, _⟩ => rfl
    | ⟨2, _⟩ => rfl
  rw [e, val_main_v6_apply, centred_apply, Ideal.mulf_def]

/-- The variance, kept with a unit last axis. -/
theorem variance_apply : val_main_v10 (F := Ideal) x0 (ix3 a s (0 : Fin 1)) = variance (row x0 a s) := by
  rw [val_main_v10_apply, val_main_v8_apply, val_main_v9_apply, val_main_cst_2_apply, Ideal.hostDivf_def, Ideal.ofBits_def]
  have e : idx_main_v8 (ix3 a s (0 : Fin 1)) = ix2 a s := by
    funext d; apply Fin.ext
    match d with
    | ⟨0, _⟩ => rfl
    | ⟨1, _⟩ => rfl
  rw [e, sumsq_apply]
  rfl

/-- The scale factor, kept with a unit last axis. -/
theorem scale_apply : val_main_v15 (F := Ideal) x0 (ix3 a s (0 : Fin 1)) = scale (row x0 a s) := by
  rw [val_main_v15_apply, val_main_v14_apply, val_main_v13_apply, val_main_cst_3_apply, variance_apply,
    Ideal.hostUnary_rsqrt_def, Ideal.addf_def, Ideal.ofBits_def]
  rfl

/-- A normalised entry: the gain and the offset are vectors of 768 repeated over the first two axes. -/
theorem normed_apply (k : Fin 768) :
    val_main_v23 (F := Ideal) x0 x1 x2 (ix3 a s k) = normed (row x0 a s) (fun k => x1 (ix1 k)) (fun k => x2 (ix1 k)) k := by
  rw [val_main_v23_apply, val_main_v20_apply, val_main_v17_apply, centred_apply', val_main_v16_apply, col_v16, scale_apply,
    val_main_v19_apply, val_main_v18_apply, val_main_v22_apply, val_main_v21_apply, Ideal.addf_def, Ideal.mulf_def, Ideal.mulf_def]
  have e1 : idx_main_v18 (idx_main_v19 (ix3 a s k)) = ix1 k := by
    funext d; apply Fin.ext
    match d with
    | ⟨0, _⟩ => rfl
  have e2 : idx_main_v21 (idx_main_v22 (ix3 a s k)) = ix1 k := by
    funext d; apply Fin.ext
    match d with
    | ⟨0, _⟩ => rfl
  rw [e1, e2]
  rfl

/-- ENTRY (a, s, q) OF THE REFERENCE'S RESULT: row (a, s) of the input, normalised with the gain and the offset,
    against row `q` of the weight matrix, plus entry `q` of the bias. -/
theorem ref_apply (q : Fin 196) :
    val_main_v27 (F := Ideal) x0 x1 x2 x3 x4 (ix3 a s q)
      = entry (row x0 a s) (fun k => x1 (ix1 k)) (fun k => x2 (ix1 k)) (fun k => x3 (ix2 q k)) (x4 (ix1 q)) := by
  rw [val_main_v27_apply, val_main_v24_apply, val_main_v26_apply, val_main_v25_apply, Ideal.addf_def]
  have e : idx_main_v25 (idx_main_v26 (ix3 a s q)) = ix1 q := by
    funext d; apply Fin.ext
    match d with
    | ⟨0, _⟩ => rfl
  rw [e]
  unfold entry
  refine congrArg (· + x4 (ix1 q)) (Finset.sum_congr rfl fun k _ => ?_)
  have el : lidx_main_v24 (ix3 a s q) k = ix3 a s k := by
    funext d; apply Fin.ext
    match d with
    | ⟨0, _⟩ => rfl
    | ⟨1, _⟩ => rfl
    | ⟨2, _⟩ => rfl
  have er : ridx_main_v24 (ix3 a s q) k = ix2 q k := by
    funext d; apply Fin.ext
    match d with
    | ⟨0, _⟩ => rfl
    | ⟨1, _⟩ => rfl
  rw [el, er, normed_apply]

/-- THE REFERENCE'S RESULT, as an array, is `result` of the five argument arrays. -/
theorem ref_is_result : val_main_v27 (F := Ideal) x0 x1 x2 x3 x4 = result x0 x1 x2 x3 x4 := by
  funext i
  obtain ⟨a, s, q, rfl⟩ : ∃ (a : Fin 16) (s : Fin 4096) (q : Fin 196), i = ix3 a s q := ⟨i 0, i 1, i 2, eq_ix3 i⟩
  exact ref_apply x0 x1 x2 x3 x4 a s q

end Cert.ReferenceIdeal.Entry

end
-- ==== Proof.lean ====
/-
  A layer normalisation followed by a linear map, computed block by block on the chip, against the same two steps
  written on the whole arrays.

  Both programs take an input of 16 × 4096 rows of 768 numbers, a gain and an offset of 768 numbers, a 196 × 768
  weight matrix and a bias of 196 numbers.  Each row is centred on its mean, divided by the square root of its variance
  plus a small constant, multiplied by the gain and shifted by the offset; the normalised row is then paired with every
  weight row and the bias is added.  The kernel program flattens the first two axes, works on 32 blocks of 2048 rows and
  unflattens its output; the reference keeps the three axes.  On the extended reals the two spell the SAME expression
  for every output entry — the same sums over the 768 positions, the same quotient by the word of 768, the same
  reciprocal square root, the same products and sums in the same order — so no algebraic law is needed, only the
  bookkeeping of which entry of which array each operation reads, and the precondition is never opened:

  * `Proof/Spec.lean`        the function of one output entry, and the result array as a function of the arguments;
  * `Proof/Payload.lean`     entry (p, q) of a block the kernel body stores is that function of row p of its input block;
  * `Proof/Blocks.lean`      the 32 stored blocks are the restrictions of one function of the whole arrays, and tile it;
  * `Proof/KernelValue.lean` the reshapes before and after the region composed with it: the program's result;
  * `Proof/RefEntry.lean`    the reference's result, stage by stage, is the same function.

  The rounding of the matrix product's operands to sixteen bits is the identity on the extended reals, and the
  idealised kernel is the kernel's own text, so nothing is owed for the idealisation.
-/
import proofs.«173194_j48773648614249_1_alg».proof.Defs
import proofs.«173194_j48773648614249_1_alg».proof.Proof.Gen.Kernel
import proofs.«173194_j48773648614249_1_alg».proof.Proof.Gen.Kernel.Frame
import proofs.«173194_j48773648614249_1_alg».proof.Proof.Gen.KernelIdeal
import proofs.«173194_j48773648614249_1_alg».proof.Proof.Gen.KernelIdeal.Frame
import proofs.«173194_j48773648614249_1_alg».proof.Proof.Gen.ReferenceIdeal
import proofs.«173194_j48773648614249_1_alg».proof.Proof.Gen.Pre_finite_inputs
import proofs.«173194_j48773648614249_1_alg».proof.Proof.Gen.ReferenceIdeal.Run
import proofs.«173194_j48773648614249_1_alg».proof.Proof.Gen.ReferenceIdeal.Read
import proofs.«173194_j48773648614249_1_alg».proof.Proof.KernelValue
import proofs.«173194_j48773648614249_1_alg».proof.Proof.RefEntry
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments as launched: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's own text: no rewrite was applied, nothing is owed. -/
theorem preserves : Cert.preserves_Kernel_KernelIdeal := trivial

/-- From memories that agree on the five arguments both programs end with their result at `result` of those
    arguments: the kernel program by its blocks and reshapes, the reference stage by stage. -/
theorem algebraic : Cert.algebraic_KernelIdeal_ReferenceIdeal := by
  intro m ρ m' ρ' _ hagree
  refine ⟨fun c => Cert.LnLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Entry.ref_is_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
